-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v11) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024 : Shape := ⟨1, ![1024]⟩
abbrev S64x1024 : Shape := ⟨2, ![64, 1024]⟩
abbrev S64x1024x1024 : Shape := ⟨3, ![64, 1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S64x1024x1024 : S_.BroadcastsInDim S64x1024x1024 (![] : Fin 0 → Fin S64x1024x1024.rank)
  reducesTo_S64x1024x1024_S_d0_1_2 : S64x1024x1024.ReducesTo [0, 1, 2] S_

variable [Facts]

def fn_part1 {F : FTy → Type} [FloatOps F] (main_arg4 : FVec F S64x1024 .f32) (main_arg5 : FVec F S64x1024 .f32) (main_v13 : IVec S_ 1) (main_v16 : IVec S64x1024x1024 1) : IVec S_ 1 :=
  let main_c_5 : IVec S_ 1 := constantI S_ 1 1#1
  let main_v17 : IVec S_ 1 := (fun x v => Host.reduce IntOp.andi x v reducesTo_S64x1024x1024_S_d0_1_2 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  main_v28

def fn {F : FTy → Type} [FloatOps F] (main_arg0 : FVec F S1024x1024 .f32) (main_arg1 : FVec F S1024 .f32) (main_arg2 : FVec F S64x1024 .f32) (main_arg3 : FVec F S64x1024x1024 .f32) (main_arg4 : FVec F S64x1024 .f32) (main_arg5 : FVec F S64x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024x1024 .f32 := Host.absf main_arg3
  let main_cst_4 : FVec F S_ .f32 := constant S_ .f32 0x7F800000#32
  let main_v15 : FVec F S64x1024x1024 .f32 := broadcastInDim S64x1024x1024 ![] bcast_S_S64x1024x1024 main_cst_4
  let main_v16 : IVec S64x1024x1024 1 := cmpf .olt main_v14 main_v15
  fn_part1 (F := F) main_arg4 main_arg5 main_v13 main_v16
-- ==== Kernel.lean ====
abbrev S1024x1024 : Shape := ⟨2, ![1024, 1024]⟩
abbrev S1024 : Shape := ⟨1, ![1024]⟩
abbrev S64x1024 : Shape := ⟨2, ![64, 1024]⟩
abbrev S64x1024x1024 : Shape := ⟨3, ![64, 1024, 1024]⟩
abbrev S1x1024 : Shape := ⟨2, ![1, 1024]⟩
abbrev S1024x512 : Shape := ⟨2, ![1024, 512]⟩
abbrev S1x512 : Shape := ⟨2, ![1, 512]⟩
abbrev S64x512 : Shape := ⟨2, ![64, 512]⟩
abbrev S64x1024x1 : Shape := ⟨3, ![64, 1024, 1]⟩
abbrev S8x128x1024 : Shape := ⟨3, ![8, 128, 1024]⟩
abbrev S8x128x1 : Shape := ⟨3, ![8, 128, 1]⟩

abbrev nBuf : Space → Nat
  | .hbm => 12
  | .vmem => 21
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S64x1024, .f32⟩
  | .hbm, ⟨3, _⟩ => ⟨S64x1024x1024, .f32⟩
  | .hbm, ⟨4, _⟩ => ⟨S64x1024, .f32⟩
  | .hbm, ⟨5, _⟩ => ⟨S64x1024, .f32⟩
  | .hbm, ⟨6, _⟩ => ⟨S1x1024, .f32⟩
  | .hbm, ⟨7, _⟩ => ⟨S64x1024, .f32⟩
  | .hbm, ⟨8, _⟩ => ⟨S64x1024, .f32⟩
  | .hbm, ⟨9, _⟩ => ⟨S64x1024, .f32⟩
  | .hbm, ⟨10, _⟩ => ⟨S64x1024x1, .f32⟩
  | .hbm, ⟨11, _⟩ => ⟨S64x1024x1024, .f32⟩
  | .local _ .vmem, ⟨0, _⟩ => ⟨S64x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S8x128x1024, .f32⟩
  | .local _ .vmem, ⟨16, _⟩ => ⟨S8x128x1024, .f32⟩
  | .local _ .vmem, ⟨17, _⟩ => ⟨S8x128x1, .f32⟩
  | .local _ .vmem, ⟨18, _⟩ => ⟨S8x128x1, .f32⟩
  | .local _ .vmem, ⟨19, _⟩ => ⟨S8x128x1024, .f32⟩
  | .local _ .vmem, ⟨20, _⟩ => ⟨S8x128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S1024_S1x1024 : S1024.ShapeCasts S1x1024
  inb_S64x1024_S64x1024_0_0 : ∀ a, (![0, 0] : Fin 2 → Nat) a + S64x1024.size a ≤ S64x1024.size a
  h_S64x1024 : 0 < S64x1024.numel
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  natLt_1_32 : 1 < 32
  bcast_S64x1024_S64x1024x1_0_1 : S64x1024.BroadcastsInDim S64x1024x1 (![0, 1] : Fin 2 → Fin S64x1024x1.rank)
  inb_S8x128x1_S8x128x1_0_0_0 : ∀ a, (![0, 0, 0] : Fin 3 → Nat) a + S8x128x1.size a ≤ S8x128x1.size a
  h_S8x128x1 : 0 < S8x128x1.numel
  shapeCasts_S8x128x1_S8x128x1 : S8x128x1.ShapeCasts S8x128x1
  broadcasts_S8x128x1_S8x128x1024 : S8x128x1.Broadcasts S8x128x1024
  inb_S8x128x1024_S8x128x1024_0_0_0 : ∀ a, (![0, 0, 0] : Fin 3 → Nat) a + S8x128x1024.size a ≤ S8x128x1024.size a
  h_S8x128x1024 : 0 < S8x128x1024.numel
  dot_S64x1024_S1024x512_S64x512_1_0_0_1_n_n_wf : DotDims.WF S64x1024 S1024x512 S64x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x1024.size a
  hwx0_1 : ∀ i : grid0.Coords, EltTy.bits .f32 = 32 ∨ (Rect.block (s := S1024x1024) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x1024.size a
  hwx0_3 : ∀ i : grid0.Coords, EltTy.bits .f32 = 32 ∨ (Rect.block (s := S64x1024) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S64x1024.size a
  hwx0_4 : ∀ i : grid0.Coords, EltTy.bits .f32 = 32 ∨ (Rect.block (s := S64x1024) S64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x1024.size a
  hwx0_5 : ∀ i : grid0.Coords, EltTy.bits .f32 = 32 ∨ (Rect.block (s := S64x1024) S64x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S64x1024.size a
  hwx0_6 : ∀ i : grid0.Coords, EltTy.bits .f32 = 32 ∨ (Rect.block (s := S64x1024) S64x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x512.size a ≤ S64x1024.size a
  hwx0_7 : ∀ i : grid0.Coords, EltTy.bits .f32 = 32 ∨ (Rect.block (s := S64x1024) S64x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x1024.size a ≤ S64x1024x1024.size a
  hwx1_0 : ∀ i : grid1.Coords, EltTy.bits .f32 = 32 ∨ (Rect.block (s := S64x1024x1024) S8x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128x1.size a ≤ S64x1024x1.size a
  hwx1_1 : ∀ i : grid1.Coords, EltTy.bits .f32 = 32 ∨ (Rect.block (s := S64x1024x1) S8x128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x1024.size a ≤ S64x1024x1024.size a
  hwx1_2 : ∀ i : grid1.Coords, EltTy.bits .f32 = 32 ∨ (Rect.block (s := S64x1024x1024) S8x128x1024.size (cc1_transform_2 i) (hinb1_2 i)).WholeWords (EltTy.packing .f32)

variable [Facts₀]

def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf

abbrev win0_0 : Pipeline.Window sig grid0 :=
  Pipeline.Window.ofSpec (Memref.whole main_arg5) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S64x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S64x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_2) S64x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg3) S8x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8x128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S8x128x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where
  halias1_2 : Pipeline.Aliased win1 0 2

variable [Facts]
-- ==== ReferenceIdeal.lean ====
abbrev S1024x1024 : Shape := ⟨2, ![1024, 1024]⟩
abbrev S1024 : Shape := ⟨1, ![1024]⟩
abbrev S64x1024 : Shape := ⟨2, ![64, 1024]⟩
abbrev S64x1024x1024 : Shape := ⟨3, ![64, 1024, 1024]⟩
abbrev S1x1024 : Shape := ⟨2, ![1, 1024]⟩
abbrev S_ : Shape := ⟨0, ![]⟩
abbrev S64x1024x1 : Shape := ⟨3, ![64, 1024, 1]⟩

abbrev nBuf : Space → Nat
  | .hbm => 34
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S64x1024, .f32⟩
  | .hbm, ⟨3, _⟩ => ⟨S64x1024x1024, .f32⟩
  | .hbm, ⟨4, _⟩ => ⟨S64x1024, .f32⟩
  | .hbm, ⟨5, _⟩ => ⟨S64x1024, .f32⟩
  | .hbm, ⟨6, _⟩ => ⟨S64x1024, .f32⟩
  | .hbm, ⟨7, _⟩ => ⟨S1x1024, .f32⟩
  | .hbm, ⟨8, _⟩ => ⟨S64x1024, .f32⟩
  | .hbm, ⟨9, _⟩ => ⟨S64x1024, .f32⟩
  | .hbm, ⟨10, _⟩ => ⟨S_, .f32⟩
  | .hbm, ⟨11, _⟩ => ⟨S64x1024, .f32⟩
  | .hbm, ⟨12, _⟩ => ⟨S64x1024, .f32⟩
  | .hbm, ⟨13, _⟩ => ⟨S64x1024, .f32⟩
  | .hbm, ⟨14, _⟩ => ⟨S_, .f32⟩
  | .hbm, ⟨15, _⟩ => ⟨S64x1024, .f32⟩
  | .hbm, ⟨16, _⟩ => ⟨S64x1024, .f32⟩
  | .hbm, ⟨17, _⟩ => ⟨S_, .f32⟩
  | .hbm, ⟨18, _⟩ => ⟨S64x1024, .f32⟩
  | .hbm, ⟨19, _⟩ => ⟨S64x1024, .i1⟩
  | .hbm, ⟨20, _⟩ => ⟨S64x1024, .f32⟩
  | .hbm, ⟨21, _⟩ => ⟨S64x1024, .f32⟩
  | .hbm, ⟨22, _⟩ => ⟨S_, .f32⟩
  | .hbm, ⟨23, _⟩ => ⟨S64x1024x1024, .f32⟩
  | .hbm, ⟨24, _⟩ => ⟨S64x1024x1024, .f32⟩
  | .hbm, ⟨25, _⟩ => ⟨S64x1024x1, .f32⟩
  | .hbm, ⟨26, _⟩ => ⟨S64x1024x1024, .f32⟩
  | .hbm, ⟨27, _⟩ => ⟨S64x1024x1024, .f32⟩
  | .hbm, ⟨28, _⟩ => ⟨S_, .f32⟩
  | .hbm, ⟨29, _⟩ => ⟨S64x1024, .f32⟩
  | .hbm, ⟨30, _⟩ => ⟨S64x1024, .f32⟩
  | .hbm, ⟨31, _⟩ => ⟨S_, .f32⟩
  | .hbm, ⟨32, _⟩ => ⟨S64x1024, .f32⟩
  | .hbm, ⟨33, _⟩ => ⟨S64x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  bcast_S_S64x1024x1024 : S_.BroadcastsInDim S64x1024x1024 (![] : Fin 0 → Fin S64x1024x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024_S1024x1024_S64x1024_1_0_0_1_n_n_wf : DotDims.WF S64x1024 S1024x1024 S64x1024 [1] [0] [0] [1] [] []

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

class Facts : Prop extends Facts₀ where

variable [Facts]
-- ==== Proof.KernelRun.lean ====
/-
  The idealized kernel's run, with its four result arrays named.

  The program is two pipelined regions among two stretches of host operations. Its run ends with every buffer that
  outlives a region at the contents of the last segment boundary; read at the four result buffers and the six
  argument buffers this says where each result array ends (at the last boundary's contents, which the modules that
  import this one open region by region) and that the arguments end as launched.
-/
import proofs.«150171_j60894046323057_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with each result buffer at the contents of
    the last segment boundary and each argument buffer as launched. -/
theorem run_boundary : θ_run defs (onTc (τ := τ) (main (F := F))) ⟨m, fun _ => 0, ρ⟩ (fun r => ∀ c : Dev nD,
      r.2.mem ((c.tc : Thread nD τ).loc main_v1_0) = W4 m ρ c (Proc.devRef .tc main_v1_0)
      ∧ r.2.mem ((c.tc : Thread nD τ).loc main_v3) = W4 m ρ c (Proc.devRef .tc main_v3)
      ∧ r.2.mem ((c.tc : Thread nD τ).loc main_v1_2) = W4 m ρ c (Proc.devRef .tc main_v1_2)
      ∧ r.2.mem ((c.tc : Thread nD τ).loc main_v1_1) = W4 m ρ c (Proc.devRef .tc main_v1_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v1_0 (by decide)),
       h c _ (mem_uc main_v3 (by decide)),
       h c _ (mem_uc main_v1_2 (by decide)),
       h c _ (mem_uc main_v1_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.RunValue

end
-- ==== Proof.Boundary.lean ====
/-
  From the last segment boundary back to the regions, and what each region finds when it is entered.

  The program is: the bias recast as a one-row matrix; the first kernel; the input given a last axis of length one and
  the old weight trace copied into the result's buffer; the second kernel. So:
  * the first kernel's three results are not touched after its region: they end as that region's final arrays;
  * the weight trace ends as the second region's final array;
  * the first region finds the arguments as launched and the bias as the recast of the launched bias;
  * the second region finds the old weight trace as launched, and the input with its extra axis.
-/
import proofs.«150171_j60894046323057_2_alg».proof.Proof.Gen.KernelIdeal.Frame
import Idealize.ShloMosaic.Lib.StableHlo.Run

set_option maxRecDepth 16384

noncomputable section

namespace Cert.KernelIdeal.Boundary

open Cert.KernelIdeal Cert.KernelIdeal.Gen Idealize.ShloMosaic Idealize.ShloMosaic.TcCoe Idealize.ShloMosaic.StableHlo Idealize.SL.Sem
open Idealize.ShloMosaic.Pipeline (Dat Cfg Window)

variable {F : FTy → Type} [FloatOps F]
variable (m : (ℓ : Loc nD τ sig) → Buf (Elt F) ℓ) (ρ : Dev nD → PrngReg)

/-! ## What the first region finds -/

theorem entry0_weights (c : Dev nD) : V1 m ρ c main_arg0 = m ((c : Thread nD τ).loc main_arg0) := by
  show StableHlo.after hostOps0 (W0 m ρ c) (Proc.devRef .tc main_arg0) = _
  after_results

theorem entry0_potential (c : Dev nD) : V1 m ρ c main_arg2 = m ((c : Thread nD τ).loc main_arg2) := by
  show StableHlo.after hostOps0 (W0 m ρ c) (Proc.devRef .tc main_arg2) = _
  after_results

theorem entry0_biasTrace (c : Dev nD) : V1 m ρ c main_arg4 = m ((c : Thread nD τ).loc main_arg4) := by
  show StableHlo.after hostOps0 (W0 m ρ c) (Proc.devRef .tc main_arg4) = _
  after_results

theorem entry0_input (c : Dev nD) : V1 m ρ c main_arg5 = m ((c : Thread nD τ).loc main_arg5) := by
  show StableHlo.after hostOps0 (W0 m ρ c) (Proc.devRef .tc main_arg5) = _
  after_results

/-- The bias the first region finds: the launched bias recast as a matrix of one row. -/
theorem entry0_bias (c : Dev nD) :
    V1 m ρ c main_v0 = shapeCast S1x1024 (m ((c : Thread nD τ).loc main_arg1)) shapeCasts_S1024_S1x1024 := by
  show StableHlo.after hostOps0 (W0 m ρ c) (Proc.devRef .tc main_v0) = _
  after_results
  rfl

/-! ## What the second region finds -/

/-- The input is an operand of the first region, which leaves it as it found it. -/
theorem mid_input (c : Dev nD) : W2 m ρ c (Proc.devRef .tc main_arg5) = m ((c : Thread nD τ).loc main_arg5) :=
  ((W2_arr m ρ c 0).trans (((dat0 (V1 m ρ) c).arrAt_in 0 rfl _).trans (A_eq0 (V1 m ρ) c 0))).trans (entry0_input m ρ c)

/-- The old weight trace is no array of the first region. -/
theorem mid_trace (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results

theorem entry1_trace (c : Dev nD) : V3 m ρ c main_arg3 = m ((c : Thread nD τ).loc main_arg3) := by
  show StableHlo.after hostOps1 (W2 m ρ c) (Proc.devRef .tc main_arg3) = _
  after_results
  exact mid_trace m ρ c

/-- The input the second region finds: the launched input with a last axis of length one added. -/
theorem entry1_input (c : Dev nD) :
    V3 m ρ c main_v2 = broadcastInDim S64x1024x1 ![0, 1] bcast_S64x1024_S64x1024x1_0_1 (m ((c : Thread nD τ).loc main_arg5)) := by
  show StableHlo.after hostOps1 (W2 m ρ c) (Proc.devRef .tc main_v2) = _
  after_results
  rw [mid_input m ρ c]

/-! ## Where the results end -/

theorem end_membrane (c : Dev nD) : W4 m ρ c (Proc.devRef .tc main_v1_0) = (dat0 (V1 m ρ) c).arrAt 5 cfg0.N := by
  refine (W4_of_ne m ρ c main_v1_0 (by decide)).trans ?_
  refine Eq.trans ?_ (W2_arr m ρ c 5)
  show StableHlo.after hostOps1 (W2 m ρ c) (Proc.devRef .tc main_v1_0) = _
  after_results

theorem end_spikes (c : Dev nD) : W4 m ρ c (Proc.devRef .tc main_v1_1) = (dat0 (V1 m ρ) c).arrAt 6 cfg0.N := by
  refine (W4_of_ne m ρ c main_v1_1 (by decide)).trans ?_
  refine Eq.trans ?_ (W2_arr m ρ c 6)
  show StableHlo.after hostOps1 (W2 m ρ c) (Proc.devRef .tc main_v1_1) = _
  after_results

theorem end_biasTrace (c : Dev nD) : W4 m ρ c (Proc.devRef .tc main_v1_2) = (dat0 (V1 m ρ) c).arrAt 7 cfg0.N := by
  refine (W4_of_ne m ρ c main_v1_2 (by decide)).trans ?_
  refine Eq.trans ?_ (W2_arr m ρ c 7)
  show StableHlo.after hostOps1 (W2 m ρ c) (Proc.devRef .tc main_v1_2) = _
  after_results

theorem end_weightTrace (c : Dev nD) : W4 m ρ c (Proc.devRef .tc main_v3) = (dat1 (V3 m ρ) c).arrAt 2 cfg1.N :=
  W4_arr m ρ c 2

end Cert.KernelIdeal.Boundary

end
-- ==== Proof.Spec.lean ====
/-
  One step of a dense layer feeding leaky integrate-and-fire neurons, with the eligibility traces of the layer's
  weights and biases, over the extended reals.

  For a batch of 64 rows, 1024 inputs and 1024 neurons:
    potential (p, j) = leak · V (p, j) + (∑ₖ x (p, k) · W (k, j) + b j)
    spike (p, j)     = 1 if potential (p, j) − 1 > 0, else 0
    membrane (p, j)  = potential (p, j) − spike (p, j)
    weight trace (p, d, h) = leak · E (p, d, h) + x (p, d)
    bias trace (p, j)      = leak · e (p, j) + 1
  The three numbers (the leak factor, the threshold 1 which is also the bias trace's increment, and 0) are the
  values of the single-precision words both programs write; none of them is ever evaluated, because both programs
  write the same words.
-/
import Idealize.ShloMosaic.PureOps.Ideal.Laws
import Idealize.ShloMosaic.Lib.ValueIdx

noncomputable section

open scoped BigOperators

namespace Cert.Lif

open Idealize.ShloMosaic Idealize.ShloMosaic.ValueIdx

/-- The leak factor: the value of the word 0x3F733333. -/
def leak : EReal := Ideal.ofBits .f32 0x3F733333#32
/-- The threshold, and the bias trace's increment: the value of the word 0x3F800000. -/
def unit : EReal := Ideal.ofBits .f32 0x3F800000#32
/-- What a potential above the threshold is compared with: the value of the word 0x00000000. -/
def floor : EReal := Ideal.ofBits .f32 0x00000000#32

/-- The potential of neuron j for row p before the reset: the leaked old potential plus the dense layer's output.
    The bias is a function of the neuron alone. -/
def potential (W : (⟨2, ![1024, 1024]⟩ : Shape).Idx → EReal) (b : Fin 1024 → EReal)
    (V x : (⟨2, ![64, 1024]⟩ : Shape).Idx → EReal) (p : Fin 64) (j : Fin 1024) : EReal :=
  leak * V (ix2 p j) + ((∑ k : Fin 1024, x (ix2 p k) * W (ix2 k j)) + b j)

/-- The spike a potential gives: the one-bit answer to "is the potential minus the threshold above the floor?", read
    as the number 0 or 1. -/
def spikeOf (u : EReal) : EReal :=
  FloatOps.uitofp (F := Ideal) .f32 (FloatOps.cmpf (F := Ideal) (φ := .f32) .ogt (u - unit) floor)

/-- The spikes of the step. -/
def spikes (W : (⟨2, ![1024, 1024]⟩ : Shape).Idx → EReal) (b : Fin 1024 → EReal)
    (V x : (⟨2, ![64, 1024]⟩ : Shape).Idx → EReal) : (⟨2, ![64, 1024]⟩ : Shape).Idx → EReal :=
  fun i => spikeOf (potential W b V x (i 0) (i 1))

/-- The potentials after the reset: a neuron that spiked loses one threshold's worth. -/
def membrane (W : (⟨2, ![1024, 1024]⟩ : Shape).Idx → EReal) (b : Fin 1024 → EReal)
    (V x : (⟨2, ![64, 1024]⟩ : Shape).Idx → EReal) : (⟨2, ![64, 1024]⟩ : Shape).Idx → EReal :=
  fun i => potential W b V x (i 0) (i 1) - spikeOf (potential W b V x (i 0) (i 1))

/-- The bias's eligibility trace: leaked, plus one. -/
def biasTrace (e : (⟨2, ![64, 1024]⟩ : Shape).Idx → EReal) : (⟨2, ![64, 1024]⟩ : Shape).Idx → EReal :=
  fun i => leak * e i + unit

/-- The weights' eligibility trace: leaked, plus the input that drives the weight (the same for every neuron h). -/
def weightTrace (E : (⟨3, ![64, 1024, 1024]⟩ : Shape).Idx → EReal) (x : (⟨2, ![64, 1024]⟩ : Shape).Idx → EReal) :
    (⟨3, ![64, 1024, 1024]⟩ : Shape).Idx → EReal :=
  fun i => leak * E i + x (ix2 (i 0) (i 1))

/-- A one-bit condition widened to a word and read as a signed number is the bit read as an unsigned number: both
    are 0 or 1. -/
theorem signed_word_of_bit : ∀ b : BitVec 1,
    FloatOps.sitofp (F := Ideal) .f32 (b.setWidth 32) = FloatOps.uitofp (F := Ideal) .f32 b := by
  intro b
  show ((((b.setWidth 32).toInt : ℝ)) : EReal) = (((b.toNat : ℝ)) : EReal)
  have h : ∀ b : BitVec 1, (b.setWidth 32).toInt = (b.toNat : ℤ) := by decide
  rw [h b]
  norm_cast

end Cert.Lif

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«150171_j60894046323057_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«150171_j60894046323057_2_alg».proof.Proof.LibDenseRows
import proofs.«150171_j60894046323057_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.Payload.lean ====
/-
  What the two kernel bodies compute on one block, entry by entry, over the extended reals.

  The first body, on a block of 512 neurons (all 64 rows): the block's potentials are the leaked old potentials plus a
  matrix product with the 512 weight columns of the block plus the block's bias row repeated down the rows; its
  spikes, the reset potentials and the bias trace follow entry by entry. The second body, on a block of 8 rows by 128
  inputs (all 1024 neurons): the leaked weight trace plus the block's input column repeated along the neurons.
-/
import proofs.«150171_j60894046323057_2_alg».proof.Proof.Gen.KernelIdeal.Skeleton
import proofs.«150171_j60894046323057_2_alg».proof.Proof.Spec
import proofs.«150171_j60894046323057_2_alg».proof.Proof.LibPlainLayers

noncomputable section

open scoped BigOperators

namespace Cert.KernelIdeal.Payload

open Cert.KernelIdeal Cert.KernelIdeal.Gen Idealize.ShloMosaic Idealize.ShloMosaic.ValueIdx

/-- The body's product contracts the left operand's columns with the right operand's rows: a plain product. -/
theorem dot_plain : dot_S64x1024_S1024x512_S64x512_1_0_0_1_n_n = DotDims.plain 64 1024 512 := rfl

/-- A block's potentials at (p, q): leak times the old potential there, plus the sum over k of input (p, k) times
    weight (k, q), plus the bias row at q. -/
theorem potential_apply (v0 : Vec Ideal S64x1024 .f32) (v1 : Vec Ideal S1024x512 .f32) (v3 : Vec Ideal S1x512 .f32)
    (v7 : Vec Ideal S64x512 .f32) (p : Fin 64) (q : Fin 512) :
    k0_pay1 (F := Ideal) v0 v1 v3 v7 (ix2 p q)
      = Cert.Lif.leak * v7 (ix2 p q) + ((∑ k : Fin 1024, v0 (ix2 p k) * v1 (ix2 k q)) + v3 (ix2 (0 : Fin 1) q)) := by
  unfold k0_pay1
  exact congrArg (Cert.Lif.leak * v7 (ix2 p q) + ·)
    (Cert.PlainLayers.dense_bias_apply _ dot_plain (some .fp32) v0 v1 v3 shapeCasts_S1x512_S1x512 broadcasts_S1x512_S64x512 p q)

/-- A block's spikes: the spike of each potential (the body widens the one-bit comparison to a word and reads it as
    a signed number, which is the bit read as 0 or 1). -/
theorem spikes_apply (v0 : Vec Ideal S64x1024 .f32) (v1 : Vec Ideal S1024x512 .f32) (v3 : Vec Ideal S1x512 .f32)
    (v7 : Vec Ideal S64x512 .f32) (i : S64x512.Idx) :
    k0_pay2 (F := Ideal) v0 v1 v3 v7 i = Cert.Lif.spikeOf (k0_pay1 (F := Ideal) v0 v1 v3 v7 i) := by
  unfold k0_pay2
  exact Cert.Lif.signed_word_of_bit _

/-- A block's reset potentials: each potential minus its spike. -/
theorem membrane_apply (v0 : Vec Ideal S64x1024 .f32) (v1 : Vec Ideal S1024x512 .f32) (v3 : Vec Ideal S1x512 .f32)
    (v7 : Vec Ideal S64x512 .f32) (i : S64x512.Idx) :
    k0_pay3 (F := Ideal) v0 v1 v3 v7 i
      = k0_pay1 (F := Ideal) v0 v1 v3 v7 i - Cert.Lif.spikeOf (k0_pay1 (F := Ideal) v0 v1 v3 v7 i) := by
  unfold k0_pay3
  exact congrArg (k0_pay1 (F := Ideal) v0 v1 v3 v7 i - ·) (spikes_apply v0 v1 v3 v7 i)

/-- A block's bias trace: leaked, plus one. -/
theorem biasTrace_apply (v20 : Vec Ideal S64x512 .f32) (i : S64x512.Idx) :
    k0_pay4 (F := Ideal) v20 i = Cert.Lif.leak * v20 i + Cert.Lif.unit := rfl

/-- A block's weight trace at (a, d, h): leaked, plus the block's input column at (a, d). -/
theorem weightTrace_apply (v0 : Vec Ideal S8x128x1 .f32) (v4 : Vec Ideal S8x128x1024 .f32) (a : Fin 8) (d : Fin 128) (h : Fin 1024) :
    k1_pay1 (F := Ideal) v0 v4 (ix3 a d h) = Cert.Lif.leak * v4 (ix3 a d h) + v0 (ix3 a d (0 : Fin 1)) := by
  unfold k1_pay1
  refine congrArg (Cert.Lif.leak * v4 (ix3 a d h) + ·) ?_
  refine (broadcastTo_apply _ broadcasts_S8x128x1_S8x128x1024 (ix3 a d h) (ix3 a d (0 : Fin 1)) ?_).trans ?_
  · intro c
    match c with
    | ⟨0, _⟩ => rfl
    | ⟨1, _⟩ => rfl
    | ⟨2, _⟩ => rfl
  · rw [shapeCast_self, shapeCast_self]

end Cert.KernelIdeal.Payload

end
-- ==== Proof.Blocks.lean ====
/-
  A block's results are the specification at the block's place in the arrays.

  Block t of the first kernel holds neurons 512·t … 512·t + 511. If the block's operands are the arrays read at those
  neurons — all of the input, weight columns 512·t + q, the bias at 512·t + q, the old potentials at (p, 512·t + q) —
  then entry (p, q) of each of the block's results is the specification's entry (p, 512·t + q). For the second kernel a
  block's entry is the specification's entry wherever the block's operands are the arrays' entries.
-/
import proofs.«150171_j60894046323057_2_alg».proof.Proof.Payload

noncomputable section

open scoped BigOperators

namespace Cert.KernelIdeal.Blocks

open Cert.KernelIdeal Cert.KernelIdeal.Gen Cert.KernelIdeal.Payload Idealize.ShloMosaic Idealize.ShloMosaic.ValueIdx

section Neurons

variable (v0 : Vec Ideal S64x1024 .f32) (v1 : Vec Ideal S1024x512 .f32) (v3 : Vec Ideal S1x512 .f32) (v7 : Vec Ideal S64x512 .f32)
  (W : S1024x1024.Idx → EReal) (b : Fin 1024 → EReal) (Vm X : S64x1024.Idx → EReal) (t : ℕ)
  (h0 : ∀ (p : Fin 64) (k : Fin 1024), v0 (ix2 p k) = X (ix2 p k))
  (h1 : ∀ (k : Fin 1024) (q : Fin 512) (j : Fin 1024), j.val = t * 512 + q.val → v1 (ix2 k q) = W (ix2 k j))
  (h3 : ∀ (q : Fin 512) (j : Fin 1024), j.val = t * 512 + q.val → v3 (ix2 (0 : Fin 1) q) = b j)
  (h7 : ∀ (p : Fin 64) (q : Fin 512) (j : Fin 1024), j.val = t * 512 + q.val → v7 (ix2 p q) = Vm (ix2 p j))

include h0 h1 h3 h7

/-- The block's potential at (p, q) is the potential of row p and neuron j = 512·t + q. -/
theorem potential_eq (p : Fin 64) (q : Fin 512) (j : Fin 1024) (hj : j.val = t * 512 + q.val) :
    k0_pay1 (F := Ideal) v0 v1 v3 v7 (ix2 p q) = Cert.Lif.potential W b Vm X p j := by
  rw [potential_apply, h7 p q j hj, h3 q j hj]
  unfold Cert.Lif.potential
  refine congrArg (fun s => Cert.Lif.leak * Vm (ix2 p j) + (s + b j)) ?_
  exact Finset.sum_congr rfl fun k _ => by rw [h0 p k, h1 k q j hj]

/-- The same at an entry y of the block and an entry i of the array in the same row, 512·t columns further. -/
theorem potential_at (y : S64x512.Idx) (i : S64x1024.Idx) (hi0 : (i 0).val = (y 0).val) (hi1 : (i 1).val = t * 512 + (y 1).val) :
    k0_pay1 (F := Ideal) v0 v1 v3 v7 y = Cert.Lif.potential W b Vm X (i 0) (i 1) := by
  obtain ⟨p, q, rfl⟩ : ∃ (p : Fin 64) (q : Fin 512), y = ix2 p q := ⟨y 0, y 1, eq_ix2 y⟩
  have e0 : (i 0 : Fin 64) = p := Fin.ext hi0
  exact (potential_eq v0 v1 v3 v7 W b Vm X t h0 h1 h3 h7 p q (i 1) hi1).trans
    (congrArg (fun a : Fin 64 => Cert.Lif.potential W b Vm X a (i 1)) e0.symm)

/-- The block's reset potentials are the specification's. -/
theorem membrane_at (y : S64x512.Idx) (i : S64x1024.Idx) (hi0 : (i 0).val = (y 0).val) (hi1 : (i 1).val = t * 512 + (y 1).val) :
    k0_pay3 (F := Ideal) v0 v1 v3 v7 y = Cert.Lif.membrane W b Vm X i := by
  rw [membrane_apply, potential_at v0 v1 v3 v7 W b Vm X t h0 h1 h3 h7 y i hi0 hi1]
  rfl

/-- The block's spikes are the specification's. -/
theorem spikes_at (y : S64x512.Idx) (i : S64x1024.Idx) (hi0 : (i 0).val = (y 0).val) (hi1 : (i 1).val = t * 512 + (y 1).val) :
    k0_pay2 (F := Ideal) v0 v1 v3 v7 y = Cert.Lif.spikes W b Vm X i := by
  rw [spikes_apply, potential_at v0 v1 v3 v7 W b Vm X t h0 h1 h3 h7 y i hi0 hi1]
  rfl

end Neurons

/-- The block's bias trace is the specification's wherever the block's old trace is the array's. -/
theorem biasTrace_at (v20 : Vec Ideal S64x512 .f32) (e : S64x1024.Idx → EReal) (y : S64x512.Idx) (i : S64x1024.Idx)
    (h : v20 y = e i) : k0_pay4 (F := Ideal) v20 y = Cert.Lif.biasTrace e i := by
  rw [biasTrace_apply, h]
  rfl

/-- The second kernel's block: the weight trace at an entry y of the block is the specification's at an entry i of
    the array, when the block's old trace at y is the array's at i and the block's input column at y's row and input
    is the input at i's row and input. -/
theorem weightTrace_at (v0 : Vec Ideal S8x128x1 .f32) (v4 : Vec Ideal S8x128x1024 .f32) (E : S64x1024x1024.Idx → EReal)
    (X : S64x1024.Idx → EReal) (y : S8x128x1024.Idx) (i : S64x1024x1024.Idx)
    (h4 : v4 y = E i) (h0 : ∀ (a : Fin 8) (d : Fin 128), a.val = (y 0).val → d.val = (y 1).val → v0 (ix3 a d (0 : Fin 1)) = X (ix2 (i 0) (i 1))) :
    k1_pay1 (F := Ideal) v0 v4 y = Cert.Lif.weightTrace E X i := by
  obtain ⟨a, d, h, rfl⟩ : ∃ (a : Fin 8) (d : Fin 128) (h : Fin 1024), y = ix3 a d h := ⟨y 0, y 1, y 2, eq_ix3 y⟩
  rw [weightTrace_apply, h4, h0 a d rfl rfl]
  rfl

end Cert.KernelIdeal.Blocks

end
-- ==== Proof.Region0.lean ====
/-
  The first kernel's three result arrays, whatever the arrays hold when its region is entered.

  The region runs two grid points; point t works on neurons 512·t … 512·t + 511 and all 64 rows. Every operand window
  but the input's moves with the result windows (block column t); the input's block is the whole input at both points.
  So what point t writes back to each result is block t of ONE array — the specification of the arrays as the region
  finds them — and the two blocks tile the 1024 neurons: each result array ends holding that specification.
  The bias reaches the region as a one-row matrix; it is read here as a function of the neuron.
-/
import proofs.«150171_j60894046323057_2_alg».proof.Proof.Gen.KernelIdeal.Frame
import proofs.«150171_j60894046323057_2_alg».proof.Proof.Blocks

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point t: the input's block is always block (0, 0); every other window's is
    block (0, t). Decided over the two points. -/
theorem block_indices : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-- The bias as the region finds it — a matrix of one row — as a function of the neuron. -/
abbrev biasOf (c : Dev nD) : Fin 1024 → EReal := fun j => V c main_v0 (ix2 (0 : Fin 1) j)

/-! ## The operand blocks at a grid point are the arrays at the block's neurons -/

theorem input_block (c : Dev nD) (t : Fin cfg0.N) (p : Fin 64) (k : Fin 1024) :
    iblk0 V c 0 t (ix2 p k) = V c main_arg5 (ix2 p k) := by
  obtain ⟨e00, e01, -⟩ := block_indices t
  show V c main_arg5 (((cfg0.win 0).blk t).view.emb (ix2 p k)) = _
  refine congrArg (V c main_arg5) (funext fun a => Fin.ext ?_)
  match a with
  | ⟨0, _⟩ => show win0_0.index t (0 : Fin 2) * 64 + 1 * p.val = p.val; omega
  | ⟨1, _⟩ => show win0_0.index t (1 : Fin 2) * 1024 + 1 * k.val = k.val; omega

theorem weight_block (c : Dev nD) (t : Fin cfg0.N) (k : Fin 1024) (q : Fin 512) (j : Fin 1024) (hj : j.val = t.val * 512 + q.val) :
    iblk0 V c 1 t (ix2 k q) = V c main_arg0 (ix2 k j) := by
  obtain ⟨-, -, e10, e11, -⟩ := block_indices t
  show V c main_arg0 (((cfg0.win 1).blk t).view.emb (ix2 k q)) = _
  refine congrArg (V c main_arg0) (funext fun a => Fin.ext ?_)
  match a with
  | ⟨0, _⟩ => show win0_1.index t (0 : Fin 2) * 1024 + 1 * k.val = k.val; omega
  | ⟨1, _⟩ => show win0_1.index t (1 : Fin 2) * 512 + 1 * q.val = j.val; omega

theorem bias_block (c : Dev nD) (t : Fin cfg0.N) (q : Fin 512) (j : Fin 1024) (hj : j.val = t.val * 512 + q.val) :
    iblk0 V c 2 t (ix2 (0 : Fin 1) q) = biasOf V c j := by
  obtain ⟨-, -, -, -, e20, e21, -⟩ := block_indices t
  show V c main_v0 (((cfg0.win 2).blk t).view.emb (ix2 (0 : Fin 1) q)) = V c main_v0 (ix2 (0 : Fin 1) j)
  refine congrArg (V c main_v0) (funext fun a => Fin.ext ?_)
  match a with
  | ⟨0, _⟩ => show win0_2.index t (0 : Fin 2) * 1 + 1 * 0 = 0; omega
  | ⟨1, _⟩ => show win0_2.index t (1 : Fin 2) * 512 + 1 * q.val = j.val; omega

theorem potential_block (c : Dev nD) (t : Fin cfg0.N) (p : Fin 64) (q : Fin 512) (j : Fin 1024) (hj : j.val = t.val * 512 + q.val) :
    iblk0 V c 3 t (ix2 p q) = V c main_arg2 (ix2 p j) := by
  obtain ⟨-, -, -, -, -, -, e30, e31, -⟩ := block_indices t
  show V c main_arg2 (((cfg0.win 3).blk t).view.emb (ix2 p q)) = _
  refine congrArg (V c main_arg2) (funext fun a => Fin.ext ?_)
  match a with
  | ⟨0, _⟩ => show win0_3.index t (0 : Fin 2) * 64 + 1 * p.val = p.val; omega
  | ⟨1, _⟩ => show win0_3.index t (1 : Fin 2) * 512 + 1 * q.val = j.val; omega

/-! ## What a grid point writes back is its block of the specification -/

theorem flushed_membrane (c : Dev nD) (t : Fin cfg0.N) :
    (dat0 (F := Ideal) V c).flushed 5 t = ((cfg0.win 5).blk t).view.read (Elt Ideal)
      (Cert.Lif.membrane (V c main_arg0) (biasOf V c) (V c main_arg2) (V c main_arg5)) := by
  show (cfg0.win 5).cut (grid0.coords t) ((dat0 V c).after 5 t) = _
  rw [after0_5]
  unfold out0_5
  rw [View.canon_unit_zero zero_offsets]
  simp only [View.ld_unit_zero (S := S64x1024) zero_offsets, View.ld_unit_zero (S := S1024x512) zero_offsets,
    View.ld_unit_zero (S := S1x512) zero_offsets, View.ld_unit_zero (S := S64x512) zero_offsets]
  funext y
  obtain ⟨-, -, -, -, -, -, -, -, -, -, e50, e51, -⟩ := block_indices t
  refine Cert.KernelIdeal.Blocks.membrane_at (iblk0 V c 0 t) (iblk0 V c 1 t) (iblk0 V c 2 t) (iblk0 V c 3 t)
    (V c main_arg0) (biasOf V c) (V c main_arg2) (V c main_arg5) t.val
    (input_block V c t) (weight_block V c t) (bias_block V c t) (potential_block V c t)
    y (((cfg0.win 5).blk t).view.emb y) ?_ ?_
  · show win0_5.index t (0 : Fin 2) * 64 + 1 * (y 0).val = (y 0).val; omega
  · show win0_5.index t (1 : Fin 2) * 512 + 1 * (y 1).val = t.val * 512 + (y 1).val; omega

theorem flushed_spikes (c : Dev nD) (t : Fin cfg0.N) :
    (dat0 (F := Ideal) V c).flushed 6 t = ((cfg0.win 6).blk t).view.read (Elt Ideal)
      (Cert.Lif.spikes (V c main_arg0) (biasOf V c) (V c main_arg2) (V c main_arg5)) := by
  show (cfg0.win 6).cut (grid0.coords t) ((dat0 V c).after 6 t) = _
  rw [after0_6]
  unfold out0_6
  rw [View.canon_unit_zero zero_offsets]
  simp only [View.ld_unit_zero (S := S64x1024) zero_offsets, View.ld_unit_zero (S := S1024x512) zero_offsets,
    View.ld_unit_zero (S := S1x512) zero_offsets, View.ld_unit_zero (S := S64x512) zero_offsets]
  funext y
  obtain ⟨-, -, -, -, -, -, -, -, -, -, -, -, e60, e61, -⟩ := block_indices t
  refine Cert.KernelIdeal.Blocks.spikes_at (iblk0 V c 0 t) (iblk0 V c 1 t) (iblk0 V c 2 t) (iblk0 V c 3 t)
    (V c main_arg0) (biasOf V c) (V c main_arg2) (V c main_arg5) t.val
    (input_block V c t) (weight_block V c t) (bias_block V c t) (potential_block V c t)
    y (((cfg0.win 6).blk t).view.emb y) ?_ ?_
  · show win0_6.index t (0 : Fin 2) * 64 + 1 * (y 0).val = (y 0).val; omega
  · show win0_6.index t (1 : Fin 2) * 512 + 1 * (y 1).val = t.val * 512 + (y 1).val; omega

theorem flushed_biasTrace (c : Dev nD) (t : Fin cfg0.N) :
    (dat0 (F := Ideal) V c).flushed 7 t = ((cfg0.win 7).blk t).view.read (Elt Ideal) (Cert.Lif.biasTrace (V c main_arg4)) := by
  show (cfg0.win 7).cut (grid0.coords t) ((dat0 V c).after 7 t) = _
  rw [after0_7]
  unfold out0_7
  rw [View.canon_unit_zero zero_offsets]
  simp only [View.ld_unit_zero (S := S64x512) zero_offsets]
  funext y
  obtain ⟨-, -, -, -, -, -, -, -, e40, e41, -, -, -, -, e70, e71⟩ := block_indices t
  refine Cert.KernelIdeal.Blocks.biasTrace_at (iblk0 V c 4 t) (V c main_arg4) y (((cfg0.win 7).blk t).view.emb y) ?_
  show V c main_arg4 (((cfg0.win 4).blk t).view.emb y) = V c main_arg4 (((cfg0.win 7).blk t).view.emb y)
  refine congrArg (V c main_arg4) (funext fun a => Fin.ext ?_)
  match a with
  | ⟨0, _⟩ => show win0_4.index t (0 : Fin 2) * 64 + 1 * (y 0).val = win0_7.index t (0 : Fin 2) * 64 + 1 * (y 0).val; omega
  | ⟨1, _⟩ => show win0_4.index t (1 : Fin 2) * 512 + 1 * (y 1).val = win0_7.index t (1 : Fin 2) * 512 + 1 * (y 1).val; omega

/-! ## The two blocks tile the neurons -/

/-- Neuron column j lies in block j / 512. -/
def pointOf (i : S64x1024.Idx) : Fin cfg0.N := ⟨(i 1).val / 512, lt_of_lt_of_eq (by have h : (i 1).val < 1024 := (i 1).isLt; omega) N_0.symm⟩

theorem mem_block5 (t : Fin cfg0.N) (i : S64x1024.Idx) :
    i ∈ ((cfg0.win 5).blk t).view.set ↔ ∀ a : Fin 2, win0_5.index t a * S64x512.size a ≤ (i a).val ∧ (i a).val < win0_5.index t a * S64x512.size a + S64x512.size a := by
  show i ∈ ((View.whole main_v1_0).slice (win0_5.rect t)).set ↔ _
  rw [View.set_slice_whole, Rect.mem_set_unit]
  exact Iff.rfl

theorem mem_block6 (t : Fin cfg0.N) (i : S64x1024.Idx) :
    i ∈ ((cfg0.win 6).blk t).view.set ↔ ∀ a : Fin 2, win0_6.index t a * S64x512.size a ≤ (i a).val ∧ (i a).val < win0_6.index t a * S64x512.size a + S64x512.size a := by
  show i ∈ ((View.whole main_v1_1).slice (win0_6.rect t)).set ↔ _
  rw [View.set_slice_whole, Rect.mem_set_unit]
  exact Iff.rfl

theorem mem_block7 (t : Fin cfg0.N) (i : S64x1024.Idx) :
    i ∈ ((cfg0.win 7).blk t).view.set ↔ ∀ a : Fin 2, win0_7.index t a * S64x512.size a ≤ (i a).val ∧ (i a).val < win0_7.index t a * S64x512.size a + S64x512.size a := by
  show i ∈ ((View.whole main_v1_2).slice (win0_7.rect t)).set ↔ _
  rw [View.set_slice_whole, Rect.mem_set_unit]
  exact Iff.rfl

theorem cover5 (i : S64x1024.Idx) : ∃ t : Fin cfg0.N, (cfg0.win 5).flush t = true ∧ i ∈ ((cfg0.win 5).blk t).view.set := by
  have hi0 : (i 0).val < 64 := (i 0).isLt
  have hi1 : (i 1).val < 1024 := (i 1).isLt
  refine ⟨pointOf i, flush0_5 _, ?_⟩
  rw [mem_block5]
  obtain ⟨-, -, -, -, -, -, -, -, -, -, e50, e51, -⟩ := block_indices (pointOf i)
  have ht : (pointOf i).val = (i 1).val / 512 := rfl
  intro a
  match a with
  | ⟨0, _⟩ => show win0_5.index (pointOf i) (0 : Fin 2) * 64 ≤ (i 0).val ∧ (i 0).val < win0_5.index (pointOf i) (0 : Fin 2) * 64 + 64; omega
  | ⟨1, _⟩ => show win0_5.index (pointOf i) (1 : Fin 2) * 512 ≤ (i 1).val ∧ (i 1).val < win0_5.index (pointOf i) (1 : Fin 2) * 512 + 512; omega

theorem cover6 (i : S64x1024.Idx) : ∃ t : Fin cfg0.N, (cfg0.win 6).flush t = true ∧ i ∈ ((cfg0.win 6).blk t).view.set := by
  have hi0 : (i 0).val < 64 := (i 0).isLt
  have hi1 : (i 1).val < 1024 := (i 1).isLt
  refine ⟨pointOf i, flush0_6 _, ?_⟩
  rw [mem_block6]
  obtain ⟨-, -, -, -, -, -, -, -, -, -, -, -, e60, e61, -⟩ := block_indices (pointOf i)
  have ht : (pointOf i).val = (i 1).val / 512 := rfl
  intro a
  match a with
  | ⟨0, _⟩ => show win0_6.index (pointOf i) (0 : Fin 2) * 64 ≤ (i 0).val ∧ (i 0).val < win0_6.index (pointOf i) (0 : Fin 2) * 64 + 64; omega
  | ⟨1, _⟩ => show win0_6.index (pointOf i) (1 : Fin 2) * 512 ≤ (i 1).val ∧ (i 1).val < win0_6.index (pointOf i) (1 : Fin 2) * 512 + 512; omega

theorem cover7 (i : S64x1024.Idx) : ∃ t : Fin cfg0.N, (cfg0.win 7).flush t = true ∧ i ∈ ((cfg0.win 7).blk t).view.set := by
  have hi0 : (i 0).val < 64 := (i 0).isLt
  have hi1 : (i 1).val < 1024 := (i 1).isLt
  refine ⟨pointOf i, flush0_7 _, ?_⟩
  rw [mem_block7]
  obtain ⟨-, -, -, -, -, -, -, -, -, -, -, -, -, -, e70, e71⟩ := block_indices (pointOf i)
  have ht : (pointOf i).val = (i 1).val / 512 := rfl
  intro a
  match a with
  | ⟨0, _⟩ => show win0_7.index (pointOf i) (0 : Fin 2) * 64 ≤ (i 0).val ∧ (i 0).val < win0_7.index (pointOf i) (0 : Fin 2) * 64 + 64; omega
  | ⟨1, _⟩ => show win0_7.index (pointOf i) (1 : Fin 2) * 512 ≤ (i 1).val ∧ (i 1).val < win0_7.index (pointOf i) (1 : Fin 2) * 512 + 512; omega

/-! ## The result arrays after the region -/

theorem final_membrane (c : Dev nD) : (dat0 (F := Ideal) V c).arrAt 5 cfg0.N
    = Cert.Lif.membrane (V c main_arg0) (biasOf V c) (V c main_arg2) (V c main_arg5) :=
  (dat0 (F := Ideal) V c).arrAt_eq_of_cover 5 _ (fun t _ => flushed_membrane V c t) cover5

theorem final_spikes (c : Dev nD) : (dat0 (F := Ideal) V c).arrAt 6 cfg0.N
    = Cert.Lif.spikes (V c main_arg0) (biasOf V c) (V c main_arg2) (V c main_arg5) :=
  (dat0 (F := Ideal) V c).arrAt_eq_of_cover 6 _ (fun t _ => flushed_spikes V c t) cover6

theorem final_biasTrace (c : Dev nD) : (dat0 (F := Ideal) V c).arrAt 7 cfg0.N = Cert.Lif.biasTrace (V c main_arg4) :=
  (dat0 (F := Ideal) V c).arrAt_eq_of_cover 7 _ (fun t _ => flushed_biasTrace V c t) cover7

end Cert.KernelIdeal.Region0

end
-- ==== Proof.Region1.lean ====
/-
  The second kernel's result array, whatever the arrays hold when its region is entered.

  The region runs an 8 by 8 grid; point (r, s) works on rows 8·r … 8·r + 7, inputs 128·s … 128·s + 127 and all 1024
  neurons. The old trace's window, the input column's window and the result's window move together, so what a point
  writes back is its block of ONE array: the leaked trace plus the input (p, d) at every neuron. The 64 blocks tile the
  array, so the result array ends holding that. The input reaches the region as an array with a last axis of length
  one; it is read here as a function of the row and the input.
-/
import proofs.«150171_j60894046323057_2_alg».proof.Proof.Gen.KernelIdeal.Frame
import proofs.«150171_j60894046323057_2_alg».proof.Proof.Blocks

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0, 0] : Fin 3 → Nat) = fun _ => 0 := funext fun a => by fin_cases a <;> rfl

/-- The three windows' blocks sit at one place at every grid point, inside the 8 by 8 by 1 box of blocks. Decided over
    the 64 points. -/
theorem block_indices : ∀ t : Fin cfg1.N,
    win1_0.index t (0 : Fin 3) = win1_2.index t (0 : Fin 3) ∧ win1_0.index t (1 : Fin 3) = win1_2.index t (1 : Fin 3)
    ∧ win1_0.index t (2 : Fin 3) = win1_2.index t (2 : Fin 3)
    ∧ win1_1.index t (0 : Fin 3) = win1_2.index t (0 : Fin 3) ∧ win1_1.index t (1 : Fin 3) = win1_2.index t (1 : Fin 3)
    ∧ win1_1.index t (2 : Fin 3) = 0 ∧ win1_2.index t (2 : Fin 3) = 0
    ∧ win1_2.index t (0 : Fin 3) ≤ 7 ∧ win1_2.index t (1 : Fin 3) ≤ 7 :=
  (by decide +kernel : ∀ t : Fin grid1.N, _)

/-- Every block of the box is some grid point's. -/
theorem block_onto : ∀ (q0 q1 : Fin 8), ∃ t : Fin cfg1.N, win1_2.index t = ![q0.val, q1.val, 0] :=
  (by decide +kernel : ∀ (q0 q1 : Fin 8), ∃ t : Fin grid1.N, win1_2.index t = ![q0.val, q1.val, 0])

/-- The input as the region finds it — an array whose last axis has length one — as a function of row and input. -/
abbrev inputOf (c : Dev nD) : S64x1024.Idx → EReal := fun i => V c main_v2 (ix3 (i 0 : Fin 64) (i 1 : Fin 1024) (0 : Fin 1))

/-- What a grid point writes back is its block of the leaked trace plus the input. -/
theorem flushed_weightTrace (c : Dev nD) (t : Fin cfg1.N) :
    (dat1 (F := Ideal) V c).flushed 2 t = ((cfg1.win 2).blk t).view.read (Elt Ideal)
      (Cert.Lif.weightTrace (V c main_arg3) (inputOf V c)) := by
  show (cfg1.win 2).cut (grid1.coords t) ((dat1 V c).after 2 t) = _
  rw [after1_2]
  unfold out1_2
  rw [View.canon_unit_zero zero_offsets]
  simp only [View.ld_unit_zero (S := S8x128x1) zero_offsets, View.ld_unit_zero (S := S8x128x1024) zero_offsets]
  funext y
  obtain ⟨e00, e01, e02, e10, e11, e12, e22, -, -⟩ := block_indices t
  refine Cert.KernelIdeal.Blocks.weightTrace_at (iblk1 V c 1 t) (iblk1 V c 0 t) (V c main_arg3) (inputOf V c) y
    (((cfg1.win 2).blk t).view.emb y) ?_ ?_
  · show V c main_arg3 (((cfg1.win 0).blk t).view.emb y) = V c main_arg3 (((cfg1.win 2).blk t).view.emb y)
    refine congrArg (V c main_arg3) (funext fun a => Fin.ext ?_)
    match a with
    | ⟨0, _⟩ => show win1_0.index t (0 : Fin 3) * 8 + 1 * (y 0).val = win1_2.index t (0 : Fin 3) * 8 + 1 * (y 0).val; omega
    | ⟨1, _⟩ => show win1_0.index t (1 : Fin 3) * 128 + 1 * (y 1).val = win1_2.index t (1 : Fin 3) * 128 + 1 * (y 1).val; omega
    | ⟨2, _⟩ => show win1_0.index t (2 : Fin 3) * 1024 + 1 * (y 2).val = win1_2.index t (2 : Fin 3) * 1024 + 1 * (y 2).val; omega
  · intro a d ha hd
    show V c main_v2 (((cfg1.win 1).blk t).view.emb (ix3 a d (0 : Fin 1)))
      = V c main_v2 (ix3 ((((cfg1.win 2).blk t).view.emb y) 0 : Fin 64) ((((cfg1.win 2).blk t).view.emb y) 1 : Fin 1024) (0 : Fin 1))
    refine congrArg (V c main_v2) (funext fun b => Fin.ext ?_)
    match b with
    | ⟨0, _⟩ => show win1_1.index t (0 : Fin 3) * 8 + 1 * a.val = win1_2.index t (0 : Fin 3) * 8 + 1 * (y 0).val; omega
    | ⟨1, _⟩ => show win1_1.index t (1 : Fin 3) * 128 + 1 * d.val = win1_2.index t (1 : Fin 3) * 128 + 1 * (y 1).val; omega
    | ⟨2, _⟩ => show win1_1.index t (2 : Fin 3) * 1 + 1 * 0 = 0; omega

theorem mem_block (t : Fin cfg1.N) (i : S64x1024x1024.Idx) :
    i ∈ ((cfg1.win 2).blk t).view.set ↔ ∀ a : Fin 3, win1_2.index t a * S8x128x1024.size a ≤ (i a).val ∧ (i a).val < win1_2.index t a * S8x128x1024.size a + S8x128x1024.size a := by
  show i ∈ ((View.whole main_v3).slice (win1_2.rect t)).set ↔ _
  rw [View.set_slice_whole, Rect.mem_set_unit]
  exact Iff.rfl

/-- The 64 blocks tile the array: entry (p, d, h) lies in block (p / 8, d / 128). -/
theorem cover (i : S64x1024x1024.Idx) : ∃ t : Fin cfg1.N, (cfg1.win 2).flush t = true ∧ i ∈ ((cfg1.win 2).blk t).view.set := by
  have hi0 : (i 0).val < 64 := (i 0).isLt
  have hi1 : (i 1).val < 1024 := (i 1).isLt
  have hi2 : (i 2).val < 1024 := (i 2).isLt
  obtain ⟨t, ht⟩ := block_onto ⟨(i 0).val / 8, by omega⟩ ⟨(i 1).val / 128, by omega⟩
  have q0 : win1_2.index t (0 : Fin 3) = (i 0).val / 8 := congrFun ht 0
  have q1 : win1_2.index t (1 : Fin 3) = (i 1).val / 128 := congrFun ht 1
  have q2 : win1_2.index t (2 : Fin 3) = 0 := congrFun ht 2
  refine ⟨t, flush1_2 t, ?_⟩
  rw [mem_block]
  intro a
  match a with
  | ⟨0, _⟩ => show win1_2.index t (0 : Fin 3) * 8 ≤ (i 0).val ∧ (i 0).val < win1_2.index t (0 : Fin 3) * 8 + 8; omega
  | ⟨1, _⟩ => show win1_2.index t (1 : Fin 3) * 128 ≤ (i 1).val ∧ (i 1).val < win1_2.index t (1 : Fin 3) * 128 + 128; omega
  | ⟨2, _⟩ => show win1_2.index t (2 : Fin 3) * 1024 ≤ (i 2).val ∧ (i 2).val < win1_2.index t (2 : Fin 3) * 1024 + 1024; omega

/-- The result array after the region. -/
theorem final_weightTrace (c : Dev nD) : (dat1 (F := Ideal) V c).arrAt 2 cfg1.N
    = Cert.Lif.weightTrace (V c main_arg3) (inputOf V c) :=
  (dat1 (F := Ideal) V c).arrAt_eq_of_cover 2 _ (fun t _ => flushed_weightTrace V c t) (cover)

end Cert.KernelIdeal.Region1

end
-- ==== Proof.KernelValue.lean ====
/-
  The idealized kernel computes the specification: every execution ends with the four result arrays at the dense
  leaky integrate-and-fire step's formulas of the launched arguments.

  The run ends with each result at the last boundary's contents; those are the regions' final arrays; each region's
  final array is the specification of what the region found; and the regions found the launched arguments, the bias
  recast as one row (entry (0, j) of the row is entry j of the bias) and the input with an extra axis of length one
  (entry (p, d, 0) is entry (p, d) of the input).
-/
import proofs.«150171_j60894046323057_2_alg».proof.Proof.KernelRun
import proofs.«150171_j60894046323057_2_alg».proof.Proof.Boundary
import proofs.«150171_j60894046323057_2_alg».proof.Proof.Region0
import proofs.«150171_j60894046323057_2_alg».proof.Proof.Region1

set_option maxRecDepth 16384

noncomputable section

namespace Cert.KernelIdeal.KernelValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The bias row the first region finds, read at neuron j, is the launched bias at j. -/
theorem bias_eq (c : Dev nD) :
    Cert.KernelIdeal.Region0.biasOf (V1 m ρ) c = fun j => m ((c : Thread nD τ).loc main_arg1) (ix1 j) := by
  funext j
  refine (congrFun (Cert.KernelIdeal.Boundary.entry0_bias m ρ c) (ix2 (0 : Fin 1) j)).trans ?_
  exact shapeCast_apply _ shapeCasts_S1024_S1x1024 (ix2 (0 : Fin 1) j) (ix1 j) (by
    rw [Shape.rowMajor_val_two, Shape.rowMajor_val_one]; show j.val = 0 * 1024 + j.val; omega)

/-- The input the second region finds, read at row p and input d, is the launched input at (p, d). -/
theorem input_eq (c : Dev nD) :
    Cert.KernelIdeal.Region1.inputOf (V3 m ρ) c = m ((c : Thread nD τ).loc main_arg5) := by
  funext i
  refine (congrFun (Cert.KernelIdeal.Boundary.entry1_input m ρ c) (ix3 (i 0 : Fin 64) (i 1 : Fin 1024) (0 : Fin 1))).trans ?_
  exact broadcastInDim_apply ![0, 1] bcast_S64x1024_S64x1024x1_0_1 _ (ix3 (i 0 : Fin 64) (i 1 : Fin 1024) (0 : Fin 1)) i (fun a =>
    match a with
    | ⟨0, _⟩ => by show (i 0).val = if (64 : Nat) = 1 then 0 else (i 0).val; rw [if_neg (by decide)]
    | ⟨1, _⟩ => by show (i 1).val = if (1024 : Nat) = 1 then 0 else (i 1).val; rw [if_neg (by decide)])

theorem membrane_end (c : Dev nD) : W4 m ρ c (Proc.devRef .tc main_v1_0)
    = Cert.Lif.membrane (m ((c : Thread nD τ).loc main_arg0)) (fun j => m ((c : Thread nD τ).loc main_arg1) (ix1 j))
        (m ((c : Thread nD τ).loc main_arg2)) (m ((c : Thread nD τ).loc main_arg5)) := by
  refine (Cert.KernelIdeal.Boundary.end_membrane m ρ c).trans ((Cert.KernelIdeal.Region0.final_membrane (V1 m ρ) c).trans ?_)
  rw [bias_eq m ρ c, Cert.KernelIdeal.Boundary.entry0_weights m ρ c, Cert.KernelIdeal.Boundary.entry0_potential m ρ c,
    Cert.KernelIdeal.Boundary.entry0_input m ρ c]

theorem spikes_end (c : Dev nD) : W4 m ρ c (Proc.devRef .tc main_v1_1)
    = Cert.Lif.spikes (m ((c : Thread nD τ).loc main_arg0)) (fun j => m ((c : Thread nD τ).loc main_arg1) (ix1 j))
        (m ((c : Thread nD τ).loc main_arg2)) (m ((c : Thread nD τ).loc main_arg5)) := by
  refine (Cert.KernelIdeal.Boundary.end_spikes m ρ c).trans ((Cert.KernelIdeal.Region0.final_spikes (V1 m ρ) c).trans ?_)
  rw [bias_eq m ρ c, Cert.KernelIdeal.Boundary.entry0_weights m ρ c, Cert.KernelIdeal.Boundary.entry0_potential m ρ c,
    Cert.KernelIdeal.Boundary.entry0_input m ρ c]

theorem biasTrace_end (c : Dev nD) : W4 m ρ c (Proc.devRef .tc main_v1_2)
    = Cert.Lif.biasTrace (m ((c : Thread nD τ).loc main_arg4)) := by
  refine (Cert.KernelIdeal.Boundary.end_biasTrace m ρ c).trans ((Cert.KernelIdeal.Region0.final_biasTrace (V1 m ρ) c).trans ?_)
  rw [Cert.KernelIdeal.Boundary.entry0_biasTrace m ρ c]

theorem weightTrace_end (c : Dev nD) : W4 m ρ c (Proc.devRef .tc main_v3)
    = Cert.Lif.weightTrace (m ((c : Thread nD τ).loc main_arg3)) (m ((c : Thread nD τ).loc main_arg5)) := by
  refine (Cert.KernelIdeal.Boundary.end_weightTrace m ρ c).trans ((Cert.KernelIdeal.Region1.final_weightTrace (V3 m ρ) c).trans ?_)
  rw [input_eq m ρ c, Cert.KernelIdeal.Boundary.entry1_trace m ρ c]

/-- Every weakly fair execution of the idealized kernel ends, without a fault, with the four results at the
    specification of the launched arguments and the arguments as launched. -/
theorem run : θ_run defs (onTc (τ := τ) (main (F := Ideal))) ⟨m, fun _ => 0, ρ⟩ (fun r => ∀ c : Dev nD,
      r.2.mem ((c.tc : Thread nD τ).loc main_v1_0)
        = Cert.Lif.membrane (m ((c : Thread nD τ).loc main_arg0)) (fun j => m ((c : Thread nD τ).loc main_arg1) (ix1 j))
            (m ((c : Thread nD τ).loc main_arg2)) (m ((c : Thread nD τ).loc main_arg5))
      ∧ r.2.mem ((c.tc : Thread nD τ).loc main_v3)
        = Cert.Lif.weightTrace (m ((c : Thread nD τ).loc main_arg3)) (m ((c : Thread nD τ).loc main_arg5))
      ∧ r.2.mem ((c.tc : Thread nD τ).loc main_v1_2) = Cert.Lif.biasTrace (m ((c : Thread nD τ).loc main_arg4))
      ∧ r.2.mem ((c.tc : Thread nD τ).loc main_v1_1)
        = Cert.Lif.spikes (m ((c : Thread nD τ).loc main_arg0)) (fun j => m ((c : Thread nD τ).loc main_arg1) (ix1 j))
            (m ((c : Thread nD τ).loc main_arg2)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c).1.trans (membrane_end m ρ c), (h c).2.1.trans (weightTrace_end m ρ c), (h c).2.2.1.trans (biasTrace_end m ρ c),
        (h c).2.2.2.1.trans (spikes_end m ρ c), (h c).2.2.2.2⟩)
    (Cert.KernelIdeal.RunValue.run_boundary m ρ)

end Cert.KernelIdeal.KernelValue

end
-- ==== Proof.RefValue.lean ====
/-
  The reference computes the specification: each of its four results, read one operation at a time at an index, is
  the dense leaky integrate-and-fire step's formula there.

  The reference's bias is a vector of 1024 entries laid along every row; its product is a sum over the 1024 inputs;
  its spike is the one-bit comparison read as 0 or 1; its weight trace adds the input (p, d) to every neuron's entry.
-/
import proofs.«150171_j60894046323057_2_alg».proof.Proof.Gen.ReferenceIdeal.Read
import proofs.«150171_j60894046323057_2_alg».proof.Proof.Spec

noncomputable section

open scoped BigOperators

namespace Cert.ReferenceIdeal.RefValue

open Cert.ReferenceIdeal Cert.ReferenceIdeal.Read Idealize.ShloMosaic Idealize.ShloMosaic.ValueIdx

/-- The reference's potential before the reset, at (p, j). -/
theorem potential_eq (x0 : (⟨S1024x1024, .f32⟩ : BufTy).Contents (Elt Ideal)) (x1 : (⟨S1024, .f32⟩ : BufTy).Contents (Elt Ideal))
    (x2 x5 : (⟨S64x1024, .f32⟩ : BufTy).Contents (Elt Ideal)) (p : Fin 64) (j : Fin 1024) :
    val_main_v6 (F := Ideal) x0 x1 x2 x5 (ix2 p j) = Cert.Lif.potential x0 (fun j => x1 (ix1 j)) x2 x5 p j := by
  have el : ∀ k, lidx_main_v0 (ix2 p j) k = ix2 p k := fun k => funext fun a => Fin.ext (by
    match a with
    | ⟨0, _⟩ => rfl
    | ⟨1, _⟩ => rfl)
  have er : ∀ k, ridx_main_v0 (ix2 p j) k = ix2 k j := fun k => funext fun a => Fin.ext (by
    match a with
    | ⟨0, _⟩ => rfl
    | ⟨1, _⟩ => rfl)
  have eb : idx_main_v1 (idx_main_v2 (ix2 p j)) = ix1 j := funext fun a => Fin.ext (by
    match a with
    | ⟨0, _⟩ => rfl)
  rw [val_main_v6_apply, val_main_v5_apply, val_main_v4_apply, val_main_cst_apply, val_main_v3_apply, val_main_v0_apply,
    val_main_v2_apply, val_main_v1_apply, eb]
  simp only [el, er]
  rfl

/-- The reference's first result: the potentials after the reset. -/
theorem membrane_eq (x0 : (⟨S1024x1024, .f32⟩ : BufTy).Contents (Elt Ideal)) (x1 : (⟨S1024, .f32⟩ : BufTy).Contents (Elt Ideal))
    (x2 x5 : (⟨S64x1024, .f32⟩ : BufTy).Contents (Elt Ideal)) :
    val_main_v12 (F := Ideal) x0 x1 x2 x5 = Cert.Lif.membrane x0 (fun j => x1 (ix1 j)) x2 x5 := by
  funext i
  obtain ⟨p, j, rfl⟩ : ∃ (p : Fin 64) (j : Fin 1024), i = ix2 p j := ⟨i 0, i 1, eq_ix2 i⟩
  rw [val_main_v12_apply, val_main_v11_apply, val_main_v10_apply, val_main_v8_apply, val_main_v7_apply, val_main_cst_0_apply,
    val_main_v9_apply, val_main_cst_1_apply, potential_eq]
  rfl

/-- The reference's fourth result: the spikes. -/
theorem spikes_eq (x0 : (⟨S1024x1024, .f32⟩ : BufTy).Contents (Elt Ideal)) (x1 : (⟨S1024, .f32⟩ : BufTy).Contents (Elt Ideal))
    (x2 x5 : (⟨S64x1024, .f32⟩ : BufTy).Contents (Elt Ideal)) :
    val_main_v11 (F := Ideal) x0 x1 x2 x5 = Cert.Lif.spikes x0 (fun j => x1 (ix1 j)) x2 x5 := by
  funext i
  obtain ⟨p, j, rfl⟩ : ∃ (p : Fin 64) (j : Fin 1024), i = ix2 p j := ⟨i 0, i 1, eq_ix2 i⟩
  rw [val_main_v11_apply, val_main_v10_apply, val_main_v8_apply, val_main_v7_apply, val_main_cst_0_apply,
    val_main_v9_apply, val_main_cst_1_apply, potential_eq]
  rfl

/-- The reference's third result: the bias trace. -/
theorem biasTrace_eq (x4 : (⟨S64x1024, .f32⟩ : BufTy).Contents (Elt Ideal)) :
    val_main_v21 (F := Ideal) x4 = Cert.Lif.biasTrace x4 := by
  funext i
  rw [val_main_v21_apply, val_main_v19_apply, val_main_v18_apply, val_main_cst_3_apply, val_main_v20_apply, val_main_cst_4_apply]
  rfl

/-- The reference's second result: the weight trace. -/
theorem weightTrace_eq (x3 : (⟨S64x1024x1024, .f32⟩ : BufTy).Contents (Elt Ideal)) (x5 : (⟨S64x1024, .f32⟩ : BufTy).Contents (Elt Ideal)) :
    val_main_v17 (F := Ideal) x3 x5 = Cert.Lif.weightTrace x3 x5 := by
  funext i
  have e : idx_main_v15 (idx_main_v16 i) = ix2 (i 0) (i 1) := funext fun a => Fin.ext (by
    match a with
    | ⟨0, _⟩ => rfl
    | ⟨1, _⟩ => rfl)
  rw [val_main_v17_apply, val_main_v14_apply, val_main_v13_apply, val_main_cst_2_apply, val_main_v16_apply, val_main_v15_apply, e]
  rfl

end Cert.ReferenceIdeal.RefValue

end
-- ==== Proof.lean ====
/- One step of a dense layer feeding leaky integrate-and-fire neurons, with the eligibility traces of its weights and
   biases: a kernel in two pipelined regions against a plain reference, equal over the extended reals.

   For 64 rows, 1024 inputs and 1024 neurons both programs compute
     potential (p, j) = leak · V (p, j) + (∑ₖ x (p, k) · W (k, j) + b j),
     spike = 1 where potential − 1 > 0 and 0 elsewhere,   new V = potential − spike,
     new E_W (p, d, h) = leak · E_W (p, d, h) + x (p, d),   new E_b = leak · E_b + 1,
   with the same three single-precision words for the leak factor, the one and the zero. The kernel's first region tiles
   the neurons in two blocks of 512 and forms each block's product with the block's 512 weight columns; its second region
   tiles rows and inputs in an 8 by 8 grid of blocks. Neither the tiling nor the product into a zero accumulator nor the
   spelling of the spike (a one-bit comparison widened to a word and read signed, against the bit read unsigned) changes an
   entry, and no step uses a law that fails at an infinity, so the inputs' finiteness is never opened.

   The three frames are the generated ones (the reference's is its generated run with the results dropped); the kernel's
   idealization rewrote nothing; the last conjunct puts the kernel's run and the reference's run side by side at the
   specification of arguments that agree. -/
import proofs.«150171_j60894046323057_2_alg».proof.Defs
import proofs.«150171_j60894046323057_2_alg».proof.Proof.Gen.Kernel
import proofs.«150171_j60894046323057_2_alg».proof.Proof.Gen.Kernel.Skeleton
import proofs.«150171_j60894046323057_2_alg».proof.Proof.Gen.Kernel.Launch
import proofs.«150171_j60894046323057_2_alg».proof.Proof.Gen.Kernel.Points
import proofs.«150171_j60894046323057_2_alg».proof.Proof.Gen.Kernel.Frame
import proofs.«150171_j60894046323057_2_alg».proof.Proof.Gen.KernelIdeal
import proofs.«150171_j60894046323057_2_alg».proof.Proof.Gen.KernelIdeal.Skeleton
import proofs.«150171_j60894046323057_2_alg».proof.Proof.Gen.KernelIdeal.Launch
import proofs.«150171_j60894046323057_2_alg».proof.Proof.Gen.KernelIdeal.Points
import proofs.«150171_j60894046323057_2_alg».proof.Proof.Gen.KernelIdeal.Frame
import proofs.«150171_j60894046323057_2_alg».proof.Proof.Gen.ReferenceIdeal
import proofs.«150171_j60894046323057_2_alg».proof.Proof.Gen.ReferenceIdeal.Run
import proofs.«150171_j60894046323057_2_alg».proof.Proof.Gen.ReferenceIdeal.Read
import proofs.«150171_j60894046323057_2_alg».proof.Proof.Gen.Pre_finite_inputs
import proofs.«150171_j60894046323057_2_alg».proof.Proof.KernelValue
import proofs.«150171_j60894046323057_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- Both runs end at the specification of their arguments, and the arguments agree. -/
theorem algebraic : Cert.algebraic_KernelIdeal_ReferenceIdeal := by
  intro m ρ m' ρ' _ hagree
  refine ⟨_, _, _, _, Cert.KernelIdeal.KernelValue.run m ρ, ?_⟩
  refine (θ_run Cert.ReferenceIdeal.defs _ _).mono (fun _ h c => ⟨?_, ?_, ?_, ?_, (h c).2.2.2.2⟩)
    (Cert.ReferenceIdeal.Value.run (F := Ideal) m' ρ')
  · rw [(h c).1, Cert.ReferenceIdeal.Read.val_main_v12_eq, Cert.ReferenceIdeal.RefValue.membrane_eq,
      (hagree c).1, (hagree c).2.1, (hagree c).2.2.1, (hagree c).2.2.2.2.2]
  · rw [(h c).2.1, Cert.ReferenceIdeal.Read.val_main_v17_eq, Cert.ReferenceIdeal.RefValue.weightTrace_eq,
      (hagree c).2.2.2.1, (hagree c).2.2.2.2.2]
  · rw [(h c).2.2.1, Cert.ReferenceIdeal.Read.val_main_v21_eq, Cert.ReferenceIdeal.RefValue.biasTrace_eq,
      (hagree c).2.2.2.2.1]
  · rw [(h c).2.2.2.1, Cert.ReferenceIdeal.Read.val_main_v11_eq, Cert.ReferenceIdeal.RefValue.spikes_eq,
      (hagree c).1, (hagree c).2.1, (hagree c).2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
